-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S8x2048x4096 : Shape := ⟨3, ![8, 2048, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg5
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S16384x2048 .f32) (main_arg1 : IVec S16384 32) (main_arg2 : FVec F S8x2048x4096 .f32) (main_arg3 : FVec F S8x4096 .f32) (main_arg4 : FVec F S8x4096x1024 .f32) (main_arg5 : FVec F S8x1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x4096 .f32 := Host.absf main_arg2
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg5 main_v13 main_v16
-- ==== Kernel.lean ====
abbrev S16384x2048 : Shape := ⟨2, ![16384, 2048]⟩
abbrev S16384 : Shape := ⟨1, ![16384]⟩
abbrev S8x2048x4096 : Shape := ⟨3, ![8, 2048, 4096]⟩
abbrev S8x4096 : Shape := ⟨2, ![8, 4096]⟩
abbrev S8x4096x1024 : Shape := ⟨3, ![8, 4096, 1024]⟩
abbrev S8x1024 : Shape := ⟨2, ![8, 1024]⟩
abbrev S16384x1 : Shape := ⟨2, ![16384, 1]⟩
abbrev S8x1x4096 : Shape := ⟨3, ![8, 1, 4096]⟩
abbrev S8x1x1024 : Shape := ⟨3, ![8, 1, 1024]⟩
abbrev S16384x1024 : Shape := ⟨2, ![16384, 1024]⟩
abbrev S1024x2048 : Shape := ⟨2, ![1024, 2048]⟩
abbrev S1024x1 : Shape := ⟨2, ![1024, 1]⟩
abbrev S1x2048x512 : Shape := ⟨3, ![1, 2048, 512]⟩
abbrev S1x1x512 : Shape := ⟨3, ![1, 1, 512]⟩
abbrev S1x512x1024 : Shape := ⟨3, ![1, 512, 1024]⟩
abbrev S1x1x1024 : Shape := ⟨3, ![1, 1, 1024]⟩
abbrev S1024x1024 : Shape := ⟨2, ![1024, 1024]⟩
abbrev S2048x512 : Shape := ⟨2, ![2048, 512]⟩
abbrev S1x512 : Shape := ⟨2, ![1, 512]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 13
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S8x2048x4096, .f32⟩
  | .hbm, ⟨3, _⟩ => ⟨S8x4096, .f32⟩
  | .hbm, ⟨4, _⟩ => ⟨S8x4096x1024, .f32⟩
  | .hbm, ⟨5, _⟩ => ⟨S8x1024, .f32⟩
  | .hbm, ⟨6, _⟩ => ⟨S16384x2048, .bf16⟩
  | .hbm, ⟨7, _⟩ => ⟨S16384x1, .i32⟩
  | .hbm, ⟨8, _⟩ => ⟨S8x2048x4096, .bf16⟩
  | .hbm, ⟨9, _⟩ => ⟨S8x4096x1024, .bf16⟩
  | .hbm, ⟨10, _⟩ => ⟨S8x1x4096, .f32⟩
  | .hbm, ⟨11, _⟩ => ⟨S8x1x1024, .f32⟩
  | .hbm, ⟨12, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1, .i32⟩
  | .local _ .vmem, ⟨3, _⟩ => ⟨S1024x1, .i32⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 8, 8], ![false, false, false]⟩

def k0_cond2 (i : grid0.Coords) : BitVec 1 :=
  let arg1 : BitVec 32 := BitVec.ofNat 32 (i 1).val
  let c7_i32_24 : BitVec 32 := 7#32
  let v40 : BitVec 1 := Scalar.cmpi .eq arg1 c7_i32_24
  let arg2 : BitVec 32 := BitVec.ofNat 32 (i 2).val
  let c7_i32_25 : BitVec 32 := 7#32
  let v41 : BitVec 1 := Scalar.cmpi .eq arg2 c7_i32_25
  let v42 : BitVec 1 := Scalar.andi v40 v41
  let v43 : BitVec 32 := Scalar.extui v42
  let c0_i32_26 : BitVec 32 := 0#32
  let v44 : BitVec 1 := Scalar.cmpi .ne v43 c0_i32_26
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  bitsLt_bf16_f32 : FTy.bits .bf16 < FTy.bits .f32
  shapeCasts_S16384_S16384x1 : S16384.ShapeCasts S16384x1
  shapeCasts_S8x4096_S8x1x4096 : S8x4096.ShapeCasts S8x1x4096
  shapeCasts_S8x1024_S8x1x1024 : S8x1024.ShapeCasts S8x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  broadcasts_S1024x1_S1024x1024 : S1024x1.Broadcasts S1024x1024
  dot_S1024x2048_S2048x512_S1024x512_1_0_0_1_n_n_wf : DotDims.WF S1024x2048 S2048x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .bf16 = 32 ∨ (Rect.block (s := S16384x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x4096.size a
  hwx0_2 : ∀ i : grid0.Coords, EltTy.bits .bf16 = 32 ∨ (Rect.block (s := S8x2048x4096) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x4096.size a
  hwx0_3 : ∀ i : grid0.Coords, EltTy.bits .f32 = 32 ∨ (Rect.block (s := S8x1x4096) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x4096x1024.size a
  hwx0_4 : ∀ i : grid0.Coords, EltTy.bits .bf16 = 32 ∨ (Rect.block (s := S8x4096x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .f32 = 32 ∨ (Rect.block (s := S16384x1024) S1024x1024.size (cc0_transform_6 i) (hinb0_6 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x2048 : Shape := ⟨2, ![16384, 2048]⟩
abbrev S16384 : Shape := ⟨1, ![16384]⟩
abbrev S8x2048x4096 : Shape := ⟨3, ![8, 2048, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩
abbrev S16384x1024 : Shape := ⟨2, ![16384, 1024]⟩
abbrev S1x2048x4096 : Shape := ⟨3, ![1, 2048, 4096]⟩
abbrev S2048x4096 : Shape := ⟨2, ![2048, 4096]⟩
abbrev S16384x4096 : Shape := ⟨2, ![16384, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S16384x1 : Shape := ⟨2, ![16384, 1]⟩

abbrev nBuf : Space → Nat
  | .hbm => 208
  | .vmem => 0
  | .smem => 0
  | _ => 0

abbrev hbmTy0_0 (i : Nat) : BufTy := match i % 128 with
  | 0 => ⟨S16384x2048, .f32⟩
  | 1 => ⟨S16384, .i32⟩
  | 2 => ⟨S8x2048x4096, .f32⟩
  | 3 => ⟨S8x4096, .f32⟩
  | 4 => ⟨S8x4096x1024, .f32⟩
  | 5 => ⟨S8x1024, .f32⟩
  | 6 => ⟨S_, .f32⟩
  | 7 => ⟨S16384x1024, .f32⟩
  | 8 => ⟨S1x2048x4096, .f32⟩
  | 9 => ⟨S2048x4096, .f32⟩
  | 10 => ⟨S16384x4096, .f32⟩
  | 11 => ⟨S1x4096, .f32⟩
  | 12 => ⟨S4096, .f32⟩
  | 13 => ⟨S1x4096, .f32⟩
  | 14 => ⟨S16384x4096, .f32⟩
  | 15 => ⟨S16384x4096, .f32⟩
  | 16 => ⟨S_, .f32⟩
  | 17 => ⟨S16384x4096, .f32⟩
  | 18 => ⟨S16384x4096, .f32⟩
  | 19 => ⟨S1x4096x1024, .f32⟩
  | 20 => ⟨S4096x1024, .f32⟩
  | 21 => ⟨S16384x1024, .f32⟩
  | 22 => ⟨S1x1024, .f32⟩
  | 23 => ⟨S1024, .f32⟩
  | 24 => ⟨S1x1024, .f32⟩
  | 25 => ⟨S16384x1024, .f32⟩
  | 26 => ⟨S16384x1024, .f32⟩
  | 27 => ⟨S_, .i32⟩
  | 28 => ⟨S16384, .i32⟩
  | 29 => ⟨S16384, .i1⟩
  | 30 => ⟨S16384x1, .i1⟩
  | 31 => ⟨S16384x1024, .i1⟩
  | 32 => ⟨S16384x1024, .f32⟩
  | 33 => ⟨S1x2048x4096, .f32⟩
  | 34 => ⟨S2048x4096, .f32⟩
  | 35 => ⟨S16384x4096, .f32⟩
  | 36 => ⟨S1x4096, .f32⟩
  | 37 => ⟨S4096, .f32⟩
  | 38 => ⟨S1x4096, .f32⟩
  | 39 => ⟨S16384x4096, .f32⟩
  | 40 => ⟨S16384x4096, .f32⟩
  | 41 => ⟨S_, .f32⟩
  | 42 => ⟨S16384x4096, .f32⟩
  | 43 => ⟨S16384x4096, .f32⟩
  | 44 => ⟨S1x4096x1024, .f32⟩
  | 45 => ⟨S4096x1024, .f32⟩
  | 46 => ⟨S16384x1024, .f32⟩
  | 47 => ⟨S1x1024, .f32⟩
  | 48 => ⟨S1024, .f32⟩
  | 49 => ⟨S1x1024, .f32⟩
  | 50 => ⟨S16384x1024, .f32⟩
  | 51 => ⟨S16384x1024, .f32⟩
  | 52 => ⟨S_, .i32⟩
  | 53 => ⟨S16384, .i32⟩
  | 54 => ⟨S16384, .i1⟩
  | 55 => ⟨S16384x1, .i1⟩
  | 56 => ⟨S16384x1024, .i1⟩
  | 57 => ⟨S16384x1024, .f32⟩
  | 58 => ⟨S1x2048x4096, .f32⟩
  | 59 => ⟨S2048x4096, .f32⟩
  | 60 => ⟨S16384x4096, .f32⟩
  | 61 => ⟨S1x4096, .f32⟩
  | 62 => ⟨S4096, .f32⟩
  | 63 => ⟨S1x4096, .f32⟩
  | 64 => ⟨S16384x4096, .f32⟩
  | 65 => ⟨S16384x4096, .f32⟩
  | 66 => ⟨S_, .f32⟩
  | 67 => ⟨S16384x4096, .f32⟩
  | 68 => ⟨S16384x4096, .f32⟩
  | 69 => ⟨S1x4096x1024, .f32⟩
  | 70 => ⟨S4096x1024, .f32⟩
  | 71 => ⟨S16384x1024, .f32⟩
  | 72 => ⟨S1x1024, .f32⟩
  | 73 => ⟨S1024, .f32⟩
  | 74 => ⟨S1x1024, .f32⟩
  | 75 => ⟨S16384x1024, .f32⟩
  | 76 => ⟨S16384x1024, .f32⟩
  | 77 => ⟨S_, .i32⟩
  | 78 => ⟨S16384, .i32⟩
  | 79 => ⟨S16384, .i1⟩
  | 80 => ⟨S16384x1, .i1⟩
  | 81 => ⟨S16384x1024, .i1⟩
  | 82 => ⟨S16384x1024, .f32⟩
  | 83 => ⟨S1x2048x4096, .f32⟩
  | 84 => ⟨S2048x4096, .f32⟩
  | 85 => ⟨S16384x4096, .f32⟩
  | 86 => ⟨S1x4096, .f32⟩
  | 87 => ⟨S4096, .f32⟩
  | 88 => ⟨S1x4096, .f32⟩
  | 89 => ⟨S16384x4096, .f32⟩
  | 90 => ⟨S16384x4096, .f32⟩
  | 91 => ⟨S_, .f32⟩
  | 92 => ⟨S16384x4096, .f32⟩
  | 93 => ⟨S16384x4096, .f32⟩
  | 94 => ⟨S1x4096x1024, .f32⟩
  | 95 => ⟨S4096x1024, .f32⟩
  | 96 => ⟨S16384x1024, .f32⟩
  | 97 => ⟨S1x1024, .f32⟩
  | 98 => ⟨S1024, .f32⟩
  | 99 => ⟨S1x1024, .f32⟩
  | 100 => ⟨S16384x1024, .f32⟩
  | 101 => ⟨S16384x1024, .f32⟩
  | 102 => ⟨S_, .i32⟩
  | 103 => ⟨S16384, .i32⟩
  | 104 => ⟨S16384, .i1⟩
  | 105 => ⟨S16384x1, .i1⟩
  | 106 => ⟨S16384x1024, .i1⟩
  | 107 => ⟨S16384x1024, .f32⟩
  | 108 => ⟨S1x2048x4096, .f32⟩
  | 109 => ⟨S2048x4096, .f32⟩
  | 110 => ⟨S16384x4096, .f32⟩
  | 111 => ⟨S1x4096, .f32⟩
  | 112 => ⟨S4096, .f32⟩
  | 113 => ⟨S1x4096, .f32⟩
  | 114 => ⟨S16384x4096, .f32⟩
  | 115 => ⟨S16384x4096, .f32⟩
  | 116 => ⟨S_, .f32⟩
  | 117 => ⟨S16384x4096, .f32⟩
  | 118 => ⟨S16384x4096, .f32⟩
  | 119 => ⟨S1x4096x1024, .f32⟩
  | 120 => ⟨S4096x1024, .f32⟩
  | 121 => ⟨S16384x1024, .f32⟩
  | 122 => ⟨S1x1024, .f32⟩
  | 123 => ⟨S1024, .f32⟩
  | 124 => ⟨S1x1024, .f32⟩
  | 125 => ⟨S16384x1024, .f32⟩
  | 126 => ⟨S16384x1024, .f32⟩
  | 127 => ⟨S_, .i32⟩
  | _ => ⟨S16384x2048, .f32⟩

abbrev hbmTy0_1 (i : Nat) : BufTy := match i % 128 with
  | 0 => ⟨S16384, .i32⟩
  | 1 => ⟨S16384, .i1⟩
  | 2 => ⟨S16384x1, .i1⟩
  | 3 => ⟨S16384x1024, .i1⟩
  | 4 => ⟨S16384x1024, .f32⟩
  | 5 => ⟨S1x2048x4096, .f32⟩
  | 6 => ⟨S2048x4096, .f32⟩
  | 7 => ⟨S16384x4096, .f32⟩
  | 8 => ⟨S1x4096, .f32⟩
  | 9 => ⟨S4096, .f32⟩
  | 10 => ⟨S1x4096, .f32⟩
  | 11 => ⟨S16384x4096, .f32⟩
  | 12 => ⟨S16384x4096, .f32⟩
  | 13 => ⟨S_, .f32⟩
  | 14 => ⟨S16384x4096, .f32⟩
  | 15 => ⟨S16384x4096, .f32⟩
  | 16 => ⟨S1x4096x1024, .f32⟩
  | 17 => ⟨S4096x1024, .f32⟩
  | 18 => ⟨S16384x1024, .f32⟩
  | 19 => ⟨S1x1024, .f32⟩
  | 20 => ⟨S1024, .f32⟩
  | 21 => ⟨S1x1024, .f32⟩
  | 22 => ⟨S16384x1024, .f32⟩
  | 23 => ⟨S16384x1024, .f32⟩
  | 24 => ⟨S_, .i32⟩
  | 25 => ⟨S16384, .i32⟩
  | 26 => ⟨S16384, .i1⟩
  | 27 => ⟨S16384x1, .i1⟩
  | 28 => ⟨S16384x1024, .i1⟩
  | 29 => ⟨S16384x1024, .f32⟩
  | 30 => ⟨S1x2048x4096, .f32⟩
  | 31 => ⟨S2048x4096, .f32⟩
  | 32 => ⟨S16384x4096, .f32⟩
  | 33 => ⟨S1x4096, .f32⟩
  | 34 => ⟨S4096, .f32⟩
  | 35 => ⟨S1x4096, .f32⟩
  | 36 => ⟨S16384x4096, .f32⟩
  | 37 => ⟨S16384x4096, .f32⟩
  | 38 => ⟨S_, .f32⟩
  | 39 => ⟨S16384x4096, .f32⟩
  | 40 => ⟨S16384x4096, .f32⟩
  | 41 => ⟨S1x4096x1024, .f32⟩
  | 42 => ⟨S4096x1024, .f32⟩
  | 43 => ⟨S16384x1024, .f32⟩
  | 44 => ⟨S1x1024, .f32⟩
  | 45 => ⟨S1024, .f32⟩
  | 46 => ⟨S1x1024, .f32⟩
  | 47 => ⟨S16384x1024, .f32⟩
  | 48 => ⟨S16384x1024, .f32⟩
  | 49 => ⟨S_, .i32⟩
  | 50 => ⟨S16384, .i32⟩
  | 51 => ⟨S16384, .i1⟩
  | 52 => ⟨S16384x1, .i1⟩
  | 53 => ⟨S16384x1024, .i1⟩
  | 54 => ⟨S16384x1024, .f32⟩
  | 55 => ⟨S1x2048x4096, .f32⟩
  | 56 => ⟨S2048x4096, .f32⟩
  | 57 => ⟨S16384x4096, .f32⟩
  | 58 => ⟨S1x4096, .f32⟩
  | 59 => ⟨S4096, .f32⟩
  | 60 => ⟨S1x4096, .f32⟩
  | 61 => ⟨S16384x4096, .f32⟩
  | 62 => ⟨S16384x4096, .f32⟩
  | 63 => ⟨S_, .f32⟩
  | 64 => ⟨S16384x4096, .f32⟩
  | 65 => ⟨S16384x4096, .f32⟩
  | 66 => ⟨S1x4096x1024, .f32⟩
  | 67 => ⟨S4096x1024, .f32⟩
  | 68 => ⟨S16384x1024, .f32⟩
  | 69 => ⟨S1x1024, .f32⟩
  | 70 => ⟨S1024, .f32⟩
  | 71 => ⟨S1x1024, .f32⟩
  | 72 => ⟨S16384x1024, .f32⟩
  | 73 => ⟨S16384x1024, .f32⟩
  | 74 => ⟨S_, .i32⟩
  | 75 => ⟨S16384, .i32⟩
  | 76 => ⟨S16384, .i1⟩
  | 77 => ⟨S16384x1, .i1⟩
  | 78 => ⟨S16384x1024, .i1⟩
  | 79 => ⟨S16384x1024, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call1_v0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_4 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_call2_v0 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_5 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_c_6 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_call3_v0 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_7 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_c_8 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_call4_v0 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_9 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_c_10 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_call5_v0 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_11 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_c_12 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_call6_v0 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_cst_13 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_c_14 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_call7_v0 : Ref sig .tc := ⟨.hbm, 206, rfl⟩
abbrev main_v176 : Ref sig .tc := ⟨.hbm, 207, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  slices_S8x2048x4096_S1x2048x4096_0_0_0 : S8x2048x4096.Slices ![0, 0, 0] S1x2048x4096
  shapeCasts_S1x2048x4096_S2048x4096 : S1x2048x4096.ShapeCasts S2048x4096
  slices_S8x4096_S1x4096_0_0 : S8x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  slices_S8x4096x1024_S1x4096x1024_0_0_0 : S8x4096x1024.Slices ![0, 0, 0] S1x4096x1024
  shapeCasts_S1x4096x1024_S4096x1024 : S1x4096x1024.ShapeCasts S4096x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  slices_S8x2048x4096_S1x2048x4096_1_0_0 : S8x2048x4096.Slices ![1, 0, 0] S1x2048x4096
  slices_S8x4096_S1x4096_1_0 : S8x4096.Slices ![1, 0] S1x4096
  slices_S8x4096x1024_S1x4096x1024_1_0_0 : S8x4096x1024.Slices ![1, 0, 0] S1x4096x1024
  slices_S8x1024_S1x1024_1_0 : S8x1024.Slices ![1, 0] S1x1024
  slices_S8x2048x4096_S1x2048x4096_2_0_0 : S8x2048x4096.Slices ![2, 0, 0] S1x2048x4096
  slices_S8x4096_S1x4096_2_0 : S8x4096.Slices ![2, 0] S1x4096
  slices_S8x4096x1024_S1x4096x1024_2_0_0 : S8x4096x1024.Slices ![2, 0, 0] S1x4096x1024
  slices_S8x1024_S1x1024_2_0 : S8x1024.Slices ![2, 0] S1x1024
  slices_S8x2048x4096_S1x2048x4096_3_0_0 : S8x2048x4096.Slices ![3, 0, 0] S1x2048x4096
  slices_S8x4096_S1x4096_3_0 : S8x4096.Slices ![3, 0] S1x4096
  slices_S8x4096x1024_S1x4096x1024_3_0_0 : S8x4096x1024.Slices ![3, 0, 0] S1x4096x1024
  slices_S8x1024_S1x1024_3_0 : S8x1024.Slices ![3, 0] S1x1024
  slices_S8x2048x4096_S1x2048x4096_4_0_0 : S8x2048x4096.Slices ![4, 0, 0] S1x2048x4096
  slices_S8x4096_S1x4096_4_0 : S8x4096.Slices ![4, 0] S1x4096
  slices_S8x4096x1024_S1x4096x1024_4_0_0 : S8x4096x1024.Slices ![4, 0, 0] S1x4096x1024
  slices_S8x1024_S1x1024_4_0 : S8x1024.Slices ![4, 0] S1x1024
  slices_S8x2048x4096_S1x2048x4096_5_0_0 : S8x2048x4096.Slices ![5, 0, 0] S1x2048x4096
  slices_S8x4096_S1x4096_5_0 : S8x4096.Slices ![5, 0] S1x4096
  slices_S8x4096x1024_S1x4096x1024_5_0_0 : S8x4096x1024.Slices ![5, 0, 0] S1x4096x1024
  slices_S8x1024_S1x1024_5_0 : S8x1024.Slices ![5, 0] S1x1024
  slices_S8x2048x4096_S1x2048x4096_6_0_0 : S8x2048x4096.Slices ![6, 0, 0] S1x2048x4096
  slices_S8x4096_S1x4096_6_0 : S8x4096.Slices ![6, 0] S1x4096
  slices_S8x4096x1024_S1x4096x1024_6_0_0 : S8x4096x1024.Slices ![6, 0, 0] S1x4096x1024
  slices_S8x1024_S1x1024_6_0 : S8x1024.Slices ![6, 0] S1x1024
  slices_S8x2048x4096_S1x2048x4096_7_0_0 : S8x2048x4096.Slices ![7, 0, 0] S1x2048x4096
  slices_S8x4096_S1x4096_7_0 : S8x4096.Slices ![7, 0] S1x4096
  slices_S8x4096x1024_S1x4096x1024_7_0_0 : S8x4096x1024.Slices ![7, 0, 0] S1x4096x1024
  slices_S8x1024_S1x1024_7_0 : S8x1024.Slices ![7, 0] S1x1024
  dot_S16384x2048_S2048x4096_S16384x4096_1_0_0_1_n_n_wf : DotDims.WF S16384x2048 S2048x4096 S16384x4096 [1] [0] [0] [1] [] []
  dot_S16384x4096_S4096x1024_S16384x1024_1_0_0_1_n_n_wf : DotDims.WF S16384x4096 S4096x1024 S16384x1024 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.Pieces.lean ====
/-
  What each control case of the body leaves behind, as values.

  The body is run once per case; each run finds the stores it made. Read back:
    * at the first step of a row block the accumulator is zeroed and then updated, so it ends at the update of the
      zero block;
    * at every other step it ends at the update of what the step before left;
    * at the last step of a row block the output block is, moreover, a copy of the accumulator.
  "The update" is `k0_pay1` of the chunk's value `k0_pay3`, the row flags `k0_pay4` and the accumulator's contents.
-/
import proofs.«108581_j88785563943771_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The update of one step: the accumulator's contents plus the weighted chunk value. -/
abbrev update (i : grid0.Coords) (x0 : Vec F S1024x2048 .bf16) (x1 : Vec F S1024x1 .i32) (x2 : Vec F S1x2048x512 .bf16)
    (x3 : Vec F S1x1x512 .f32) (x4 : Vec F S1x512x1024 .bf16) (x5 : Vec F S1x1x1024 .f32) (acc : Vec F S1024x1024 .f32) :
    Vec F S1024x1024 .f32 :=
  k0_pay1 (k0_pay3 i x0 x2 x3 x4 x5) (k0_pay4 i x1) acc

/-- A middle step: the accumulator ends at the update of what it held. -/
theorem scratch_B (c : Dev nD) (i : grid0.Coords) (arg3 : Memref sig .tc .vmem S1024x2048 .bf16) (harg3 : arg3.IsWhole) (arg4 : Memref sig .tc .vmem S1024x1 .i32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i)
    (x0 : Vec F S1024x2048 .bf16) (x1 : Vec F S1024x1 .i32) (x2 : Vec F S1x2048x512 .bf16) (x3 : Vec F S1x1x512 .f32) (x4 : Vec F S1x512x1024 .bf16) (x5 : Vec F S1x1x1024 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = update i x0 x1 x2 x3 x4 x5 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x2048) hz2, View.ld_unit_zero (S := S1024x1) hz2, View.ld_unit_zero (S := S1024x1024) hz2, View.ld_unit_zero (S := S1x2048x512) hz3, View.ld_unit_zero (S := S1x1x512) hz3, View.ld_unit_zero (S := S1x512x1024) hz3, View.ld_unit_zero (S := S1x1x1024) hz3]

/-- The first step of a row block: the accumulator ends at the update of the zero block. -/
theorem scratch_A (c : Dev nD) (i : grid0.Coords) (arg3 : Memref sig .tc .vmem S1024x2048 .bf16) (harg3 : arg3.IsWhole) (arg4 : Memref sig .tc .vmem S1024x1 .i32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec F S1024x2048 .bf16) (x1 : Vec F S1024x1 .i32) (x2 : Vec F S1x2048x512 .bf16) (x3 : Vec F S1x1x512 .f32) (x4 : Vec F S1x512x1024 .bf16) (x5 : Vec F S1x1x1024 .f32) :
    sout0_A_0 c i arg3 harg3 arg4 harg4 arg5 harg5 arg6 harg6 arg7 harg7 arg8 harg8 arg9 harg9 arg10 harg10 hc0 hc1 x0 x1 x2 x3 x4 x5 = update i x0 x1 x2 x3 x4 x5 (k0_pay2 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg6.read_unread, harg7.read_unread, harg8.read_unread, harg9.read_unread, harg10.read_unread, View.ld_unit_zero (S := S1024x2048) hz2, View.ld_unit_zero (S := S1024x1) hz2, View.ld_unit_zero (S := S1024x1024) hz2, View.ld_unit_zero (S := S1x2048x512) hz3, View.ld_unit_zero (S := S1x1x512) hz3, View.ld_unit_zero (S := S1x512x1024) hz3, View.ld_unit_zero (S := S1x1x1024) hz3]

/-- The last step of a row block: the accumulator ends at the update of what it held, -/
theorem scratch_C (c : Dev nD) (i : grid0.Coords) (arg3 : Memref sig .tc .vmem S1024x2048 .bf16) (harg3 : arg3.IsWhole) (arg4 : Memref sig .tc .vmem S1024x1 .i32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x2048 .bf16) (x1 : Vec F S1024x1 .i32) (x2 : Vec F S1x2048x512 .bf16) (x3 : Vec F S1x1x512 .f32) (x4 : Vec F S1x512x1024 .bf16) (x5 : Vec F S1x1x1024 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = update i x0 x1 x2 x3 x4 x5 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x2048) hz2, View.ld_unit_zero (S := S1024x1) hz2, View.ld_unit_zero (S := S1024x1024) hz2, View.ld_unit_zero (S := S1x2048x512) hz3, View.ld_unit_zero (S := S1x1x512) hz3, View.ld_unit_zero (S := S1x512x1024) hz3, View.ld_unit_zero (S := S1x1x1024) hz3]

/-- and the output block is a copy of it. -/
theorem out_C (c : Dev nD) (i : grid0.Coords) (arg3 : Memref sig .tc .vmem S1024x2048 .bf16) (harg3 : arg3.IsWhole) (arg4 : Memref sig .tc .vmem S1024x1 .i32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x2048 .bf16) (x1 : Vec F S1024x1 .i32) (x2 : Vec F S1x2048x512 .bf16) (x3 : Vec F S1x1x512 .f32) (x4 : Vec F S1x512x1024 .bf16) (x5 : Vec F S1x1x1024 .f32) (xs0 : Vec F S1024x1024 .f32) :
    out0_C_6 c i arg3 harg3 arg4 harg4 arg5 harg5 arg6 harg6 arg7 harg7 arg8 harg8 arg9 harg9 arg10 harg10 hc0 hc1 x0 x1 x2 x3 x4 x5 xs0 = update i x0 x1 x2 x3 x4 x5 xs0 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x2048) hz2, View.ld_unit_zero (S := S1024x1) hz2, View.ld_unit_zero (S := S1024x1024) hz2, View.ld_unit_zero (S := S1x2048x512) hz3, View.ld_unit_zero (S := S1x1x512) hz3, View.ld_unit_zero (S := S1x512x1024) hz3, View.ld_unit_zero (S := S1x1x1024) hz3]
  exact View.readCov_cons_toLoadRect _ _ _ _

end Cert.KernelIdeal.Pieces

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«108581_j88785563943771_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.LibFlagSums.lean ====
/-
  General lemmas over the extended reals, with no array in sight: 0/1 weights, a chain of selections, sums in chunks.

  * A one-bit flag is read as the weight 1 or 0. Multiplying by such a weight distributes over ANY sum of extended
    reals (for the weight 0 both sides are 0, for the weight 1 both sides are the sum itself), so no finiteness is
    needed anywhere.
  * Eight experts are tried in turn; a row keeps the value of the last expert whose flag is set, and 0 when no flag is
    set (`chain`). When at most one flag is set, that is the weighted sum of the experts' values.
  * A sum over `a * b` terms is the sum, over `a` chunks, of the sums over the `b` terms of each chunk.
  * A running total that starts at 0 and adds one term per step is, after step `n`, the sum of the first `n + 1` terms.
-/
import Mathlib.Data.EReal.Operations
import Mathlib.Algebra.BigOperators.Fin
import Mathlib.Logic.Equiv.Fin.Basic

open scoped BigOperators

noncomputable section

namespace Cert.ExpertSum

/-- A one-bit flag as a weight: 1 when the bit is set, else 0. -/
def flag (c : BitVec 1) : EReal := if c = 1#1 then 1 else 0

theorem flag_of_set {c : BitVec 1} (h : c = 1#1) : flag c = 1 := if_pos h
theorem flag_of_unset {c : BitVec 1} (h : ¬c = 1#1) : flag c = 0 := if_neg h

/-- A 0/1 weight distributes over a sum of two extended reals, whatever they are. -/
theorem flag_mul_add (c : BitVec 1) (a b : EReal) : flag c * (a + b) = flag c * a + flag c * b := by
  unfold flag; split_ifs <;> simp

/-- A 0/1 weight distributes over a finite sum of extended reals. -/
theorem flag_mul_sum {ι : Type*} (c : BitVec 1) (S : Finset ι) (f : ι → EReal) :
    flag c * ∑ i ∈ S, f i = ∑ i ∈ S, flag c * f i := by
  unfold flag; split_ifs <;> simp

/-- Trying the experts `0, …, n - 1` in turn: the value of the last one whose flag is set, 0 when none is. -/
def chain (c : ℕ → BitVec 1) (y : ℕ → EReal) : ℕ → EReal
  | 0 => 0
  | n + 1 => if c n = 1#1 then y n else chain c y n

theorem chain_eq_zero (c : ℕ → BitVec 1) (y : ℕ → EReal) (n : ℕ) (h : ∀ k, k < n → ¬c k = 1#1) : chain c y n = 0 := by
  induction n with
  | zero => rfl
  | succ n ih =>
    show (if c n = 1#1 then y n else chain c y n) = 0
    rw [if_neg (h n (Nat.lt_succ_self n))]
    exact ih fun k hk => h k (Nat.lt_succ_of_lt hk)

/-- When at most one of the first `n` flags is set, the weighted sum of the experts' values is the chain's value. -/
theorem sum_flag_eq_chain (c : ℕ → BitVec 1) (y : ℕ → EReal) (n : ℕ)
    (hex : ∀ a b, a < b → b < n → c b = 1#1 → ¬c a = 1#1) :
    ∀ k, k ≤ n → ∑ h ∈ Finset.range k, flag (c h) * y h = chain c y k := by
  intro k
  induction k with
  | zero => intro _; rfl
  | succ k ih =>
    intro hk
    rw [Finset.sum_range_succ]
    show _ = (if c k = 1#1 then y k else chain c y k)
    by_cases hc : c k = 1#1
    · rw [if_pos hc, flag_of_set hc, one_mul,
        Finset.sum_eq_zero (fun a ha => by
          rw [flag_of_unset (hex a k (Finset.mem_range.mp ha) hk hc), zero_mul]), zero_add]
    · rw [if_neg hc, flag_of_unset hc, zero_mul, add_zero]
      exact ih (Nat.le_of_succ_le hk)

/-- A sum over `a * b` terms, chunk by chunk: chunk `c` holds the terms `b * c, …, b * c + b - 1`. -/
theorem sum_chunks {M : Type*} [AddCommMonoid M] (a b : ℕ) (f : Fin (a * b) → M) :
    ∑ c : Fin a, ∑ k : Fin b, f (finProdFinEquiv (c, k)) = ∑ k : Fin (a * b), f k := by
  rw [← Fintype.sum_prod_type (f := fun p : Fin a × Fin b => f (finProdFinEquiv p))]
  exact finProdFinEquiv.sum_comp f

/-- The position of term `k` of chunk `c`. -/
theorem chunk_val (a b : ℕ) (c : Fin a) (k : Fin b) : (finProdFinEquiv (c, k)).val = k.val + b * c.val := rfl

/-- A running total: it starts at `t 0` added to 0 and adds `t (n + 1)` at step `n + 1`. -/
def running (t : ℕ → EReal) : ℕ → EReal
  | 0 => 0 + t 0
  | n + 1 => running t n + t (n + 1)

theorem running_eq_sum (t : ℕ → EReal) (n : ℕ) : running t n = ∑ j ∈ Finset.range (n + 1), t j := by
  induction n with
  | zero => simp [running]
  | succ n ih => rw [Finset.sum_range_succ, ← ih]; rfl

/-- A sum over the first `a * b` naturals as a double sum over chunks. -/
theorem sum_range_chunks {M : Type*} [AddCommMonoid M] (a b : ℕ) (t : ℕ → M) :
    ∑ j ∈ Finset.range (a * b), t j = ∑ c : Fin a, ∑ k : Fin b, t (k.val + b * c.val) := by
  rw [Finset.sum_range, ← sum_chunks a b (fun j => t j.val)]
  rfl

end Cert.ExpertSum

end
-- ==== Proof.Payload.lean ====
/-
  What the body of one grid point computes, element by element, at the ideal values.

  One grid point handles a block of 1024 rows, one expert and one chunk of 512 hidden units. With `x` the block's
  rows, `w1`, `b1` the chunk's first-layer weights and bias, `w2` the chunk's second-layer weights and `b2` the expert's
  output bias:
    * a hidden unit is `hid r k = max (∑ j, x[r, j] * w1[j, k] + b1[k]) 0`;
    * the point's contribution to output entry `(r, v)` is `∑ k, hid r k * w2[k, v]`, plus `b2[v]` on the expert's last
      chunk only;
    * the row's weight is 1 when the row's selector word equals the expert's number, else 0;
    * the accumulator entry becomes `acc[r, v] + weight r * contribution r v`.
  Changes of float format are the identity at the ideal values, and a matrix product into a zero accumulator is the
  plain sum of products.
-/
import proofs.«108581_j88785563943771_2_alg».proof.Proof.Gen.KernelIdeal.Skeleton
import proofs.«108581_j88785563943771_2_alg».proof.Proof.LibMatmulRead
import proofs.«108581_j88785563943771_2_alg».proof.Proof.LibKeepdims
import proofs.«108581_j88785563943771_2_alg».proof.Proof.LibFlagSums
import Idealize.ShloMosaic.Lib.ValueLayout
import Idealize.ShloMosaic.Lib.Pipeline.Value
import Idealize.ShloMosaic.Lib.ValueIdx
import Idealize.ShloMosaic.PureOps.Ideal.Laws
import Idealize.ShloMosaic.Lib.Affine

open scoped BigOperators

noncomputable section

namespace Cert.KernelIdeal.Payload

open Cert.KernelIdeal Cert.KernelIdeal.Gen Idealize.ShloMosaic Idealize.ShloMosaic.ValueIdx Cert.ExpertSum

/-- A hidden unit of the chunk, for row `r`: the rectified affine form of the row. -/
def hid (x : FVec Ideal S1024x2048 .bf16) (w1 : FVec Ideal S1x2048x512 .bf16) (b1 : FVec Ideal S1x1x512 .f32)
    (r : Fin 1024) (k : Fin 512) : EReal :=
  max ((∑ j : Fin 2048, x (ix2 r j) * w1 (ix3 (0 : Fin 1) j k)) + b1 (ix3 (0 : Fin 1) (0 : Fin 1) k)) 0

/-- The point's contribution to output entry `(r, v)`; `last` says whether this is the expert's last chunk. -/
def contrib (x : FVec Ideal S1024x2048 .bf16) (w1 : FVec Ideal S1x2048x512 .bf16) (b1 : FVec Ideal S1x1x512 .f32)
    (w2 : FVec Ideal S1x512x1024 .bf16) (b2 : FVec Ideal S1x1x1024 .f32) (last : Prop) [Decidable last]
    (r v : Fin 1024) : EReal :=
  (∑ k : Fin 512, hid x w1 b1 r k * w2 (ix3 (0 : Fin 1) k v)) + (if last then b2 (ix3 (0 : Fin 1) (0 : Fin 1) v) else 0)

/-- The zero word is the extended real 0. -/
theorem zero_word : (FloatOps.ofBits (F := Ideal) .f32 0x00000000#32 : EReal) = 0 := Ideal.ofBits_zero_f32

/-- The grid's chunk coordinate is the last one exactly when the comparison's bit is set. -/
theorem last_chunk_iff (n : ℕ) (hn : n < 8) : Scalar.cmpi .eq (BitVec.ofNat 32 n) 7#32 = 1#1 ↔ n = 7 := by
  unfold Scalar.cmpi
  rw [IntOp.cmpi_eq]
  constructor
  · intro h
    have := congrArg BitVec.toNat h
    simp only [BitVec.toNat_ofNat] at this
    omega
  · rintro rfl; rfl

/-- The chunk's value before weighting, at `(r, v)`. -/
theorem pay3_apply (i : grid0.Coords) (x : FVec Ideal S1024x2048 .bf16) (w1 : FVec Ideal S1x2048x512 .bf16)
    (b1 : FVec Ideal S1x1x512 .f32) (w2 : FVec Ideal S1x512x1024 .bf16) (b2 : FVec Ideal S1x1x1024 .f32) (r v : Fin 1024) :
    k0_pay3 (F := Ideal) i x w1 b1 w2 b2 (ix2 r v) = contrib x w1 b1 w2 b2 ((i 2).val = 7) r v := by
  unfold k0_pay3 contrib
  dsimp only
  rw [addf_apply]
  congr 1
  · simp only [matmul]
    rw [show dot_S1024x512_S512x1024_S1024x1024_1_0_0_1_n_n = DotDims.plain 1024 512 1024 from rfl,
      Cert.GCN.matmul_plain_zero_apply]
    refine Finset.sum_congr rfl fun k _ => ?_
    rw [shapeCast_1ab_ab_apply, truncf_apply, maximumf_apply, addf_apply, broadcast_apply, broadcastTo_1b_ab_apply,
      shapeCast_1ab_ab_apply,
      show dot_S1024x2048_S2048x512_S1024x512_1_0_0_1_n_n = DotDims.plain 1024 2048 512 from rfl,
      Cert.GCN.matmul_plain_zero_apply, shapeCast_self]
    simp only [shapeCast_1ab_ab_apply]
    rw [zero_word]
    rfl
  · rw [broadcastTo_1b_ab_apply]
    unfold Scalar.select
    by_cases h7 : (i 2).val = 7
    · rw [if_pos (show _ = (1 : BitVec 1) from (last_chunk_iff _ (i 2).isLt).mpr h7), if_pos h7, shapeCast_1ab_ab_apply]
    · rw [if_neg (show ¬_ = (1 : BitVec 1) from fun h => h7 ((last_chunk_iff _ (i 2).isLt).mp h)), if_neg h7, broadcast_apply, zero_word]

/-- A row's flag word, at row `r`: the comparison of the row's selector word with the expert's number, widened. -/
theorem pay4_apply (i : grid0.Coords) (s : IVec S1024x1 32) (r : Fin 1024) (u : Fin 1) :
    k0_pay4 (F := Ideal) i s (ix2 r u) = (IntOp.cmpi .eq (s (ix2 r u)) (BitVec.ofNat 32 (i 1).val)).setWidth 32 := by
  unfold k0_pay4
  dsimp only
  rw [shapeCast_self]
  rfl

/-- A flag word read as a float is the flag's weight. -/
theorem sitofp_flag (c : BitVec 1) : (FloatOps.sitofp (F := Ideal) .f32 (c.setWidth 32) : EReal) = flag c := by
  by_cases h : c = 1#1
  · subst h
    rw [flag_of_set rfl]
    show (((BitVec.setWidth 32 1#1).toInt : ℝ) : EReal) = 1
    rw [show (BitVec.setWidth 32 1#1).toInt = 1 from by decide]
    norm_num
  · obtain rfl := eq_zero_of_ne_one h
    rw [flag_of_unset (by decide)]
    show (((BitVec.setWidth 32 0#1).toInt : ℝ) : EReal) = 0
    rw [show (BitVec.setWidth 32 0#1).toInt = 0 from by decide]
    norm_num

/-- The update of the accumulator, at `(r, v)`: what it held plus the row's weight times the chunk's value. -/
theorem pay1_apply (d : FVec Ideal S1024x1024 .f32) (f : IVec S1024x1 32) (acc : FVec Ideal S1024x1024 .f32) (r v : Fin 1024) :
    k0_pay1 (F := Ideal) d f acc (ix2 r v)
      = acc (ix2 r v) + FloatOps.sitofp (F := Ideal) .f32 (f (ix2 r (0 : Fin 1))) * d (ix2 r v) := by
  unfold k0_pay1
  rw [shapeCast_self, addf_apply, mulf_apply, Cert.LibKeepdims.broadcastTo_a1_ab_apply, sitofp_apply]

/-- The zero block, at any entry. -/
theorem pay2_apply (q : S1024x1024.Idx) : k0_pay2 (F := Ideal) q = 0 := by
  unfold k0_pay2
  rw [shapeCast_self, broadcast_apply]
  exact zero_word

end Cert.KernelIdeal.Payload

end
-- ==== Proof.MoeSpec.lean ====
/-
  The specification: what both programs compute, as ONE function of the six argument arrays, entry by entry.

  With `X` the rows, `S` the rows' selector words, and per expert `h` the weights `W1[h]`, `b1[h]`, `W2[h]`, `b2[h]`:
    hidden h i k = max (∑ j, X[i, j] * W1[h, j, k] + b1[h, k]) 0
    expert h i v = ∑ k, hidden h i k * W2[h, k, v] + b2[h, v]
  and entry `(i, v)` of the result is `expert h i v` for the expert `h` whose number is row `i`'s selector word (0 when
  the word names no expert): the chain `Cert.ExpertSum.chain` over the eight experts tried in turn.

  The law proved here: the hidden axis cut into eight chunks of 512, each chunk's part of an expert's value (the
  expert's output bias joining the last chunk) weighted by the 0/1 flag "row `i` selects expert `h`", the 64 weighted
  terms added in any order — that total is the same entry. Only commutativity and associativity of the extended reals'
  sum, `0 * x = 0` and `1 * x = x` are used: nothing is assumed finite.
-/
import proofs.«108581_j88785563943771_2_alg».proof.Proof.LibFlagSums
import Idealize.ShloMosaic.PureOps.Ideal
import Idealize.ShloMosaic.Lib.ValueIdx
import Idealize.ShloMosaic.Lib.Affine

open scoped BigOperators

noncomputable section

namespace Cert.Moe

open Idealize.ShloMosaic Idealize.ShloMosaic.ValueIdx Cert.ExpertSum

/-- The six argument arrays, as functions of their indices. -/
structure Args where
  X : (⟨2, ![16384, 2048]⟩ : Shape).Idx → EReal
  S : (⟨1, ![16384]⟩ : Shape).Idx → BitVec 32
  W1 : (⟨3, ![8, 2048, 4096]⟩ : Shape).Idx → EReal
  B1 : (⟨2, ![8, 4096]⟩ : Shape).Idx → EReal
  W2 : (⟨3, ![8, 4096, 1024]⟩ : Shape).Idx → EReal
  B2 : (⟨2, ![8, 1024]⟩ : Shape).Idx → EReal

variable (A : Args)

/-- Hidden unit `k` of expert `h` for row `i`. -/
def hidden (h : Fin 8) (i : Fin 16384) (k : Fin 4096) : EReal :=
  max ((∑ j : Fin 2048, A.X (ix2 i j) * A.W1 (ix3 h j k)) + A.B1 (ix2 h k)) 0

/-- Expert `h`'s value at `(i, v)`. -/
def expert (h : Fin 8) (i : Fin 16384) (v : Fin 1024) : EReal :=
  (∑ k : Fin 4096, hidden A h i k * A.W2 (ix3 h k v)) + A.B2 (ix2 h v)

/-- Hidden position `k` of chunk `cc`: `512 * cc + k`. -/
abbrev pos (cc : Fin 8) (k : Fin 512) : Fin 4096 := finProdFinEquiv (cc, k)

theorem pos_val (cc : Fin 8) (k : Fin 512) : (pos cc k).val = k.val + 512 * cc.val := rfl

/-- Chunk `cc`'s part of expert `h`'s value at `(i, v)`; the output bias joins the last chunk. -/
def chunkTerm (h cc : Fin 8) (i : Fin 16384) (v : Fin 1024) : EReal :=
  (∑ k : Fin 512, hidden A h i (pos cc k) * A.W2 (ix3 h (pos cc k) v)) + (if cc.val = 7 then A.B2 (ix2 h v) else 0)

/-- An expert's value is the sum of its eight chunks' parts. -/
theorem sum_chunkTerm (h : Fin 8) (i : Fin 16384) (v : Fin 1024) : ∑ cc : Fin 8, chunkTerm A h cc i v = expert A h i v := by
  unfold chunkTerm expert
  rw [Finset.sum_add_distrib]
  congr 1
  · exact sum_chunks 8 512 (fun k : Fin (8 * 512) => hidden A h i k * A.W2 (ix3 h k v))
  · rw [Fin.sum_univ_eight]
    simp

/-- The flag "row `i`'s selector word is expert `h`'s number". -/
def sel (i : Fin 16384) (h : ℕ) : BitVec 1 := IntOp.cmpi .eq (A.S (ix1 i)) (BitVec.ofNat 32 h)

/-- At most one of the eight flags of a row is set. -/
theorem sel_exclusive (i : Fin 16384) (a b : ℕ) (hab : a < b) (hb : b < 8) (h : sel A i b = 1#1) : ¬sel A i a = 1#1 := by
  intro h'
  have e : BitVec.ofNat 32 a = BitVec.ofNat 32 b := (IntOp.cmpi_eq.mp h').symm.trans (IntOp.cmpi_eq.mp h)
  have := congrArg BitVec.toNat e
  simp only [BitVec.toNat_ofNat] at this
  omega

/-- The experts' values and the chunks' parts with plain natural numbers for the expert and the chunk (0 outside). -/
def expertN (i : Fin 16384) (v : Fin 1024) (h : ℕ) : EReal := if hh : h < 8 then expert A ⟨h, hh⟩ i v else 0
def chunkN (i : Fin 16384) (v : Fin 1024) (h cc : ℕ) : EReal :=
  if hh : h < 8 then if hc : cc < 8 then chunkTerm A ⟨h, hh⟩ ⟨cc, hc⟩ i v else 0 else 0

/-- THE RESULT, entry by entry. -/
def G : (⟨2, ![16384, 1024]⟩ : Shape).Idx → EReal :=
  fun q => chain (sel A (q 0)) (expertN A (q 0) (q 1)) 8

/-- Grid step `j` of a row block handles expert `j / 8` and chunk `j % 8`: its weighted term. -/
def stepTerm (i : Fin 16384) (v : Fin 1024) (j : ℕ) : EReal := flag (sel A i (j / 8)) * chunkN A i v (j / 8) (j % 8)

/-- The 64 weighted terms of a row add up to the result's entry. -/
theorem sum_stepTerm (i : Fin 16384) (v : Fin 1024) : ∑ j ∈ Finset.range 64, stepTerm A i v j = G A (ix2 i v) := by
  show _ = chain (sel A i) (expertN A i v) 8
  rw [← sum_flag_eq_chain (sel A i) (expertN A i v) 8 (sel_exclusive A i) 8 le_rfl,
    show (64 : ℕ) = 8 * 8 from rfl, sum_range_chunks 8 8, Finset.sum_range]
  refine Finset.sum_congr rfl fun h _ => ?_
  have e : ∀ cc : Fin 8, stepTerm A i v (cc.val + 8 * h.val) = flag (sel A i h.val) * chunkTerm A h cc i v := fun cc => by
    have h1 : (cc.val + 8 * h.val) / 8 = h.val := by have := cc.isLt; omega
    have h2 : (cc.val + 8 * h.val) % 8 = cc.val := by have := cc.isLt; omega
    unfold stepTerm chunkN
    rw [h1, h2, dif_pos h.isLt, dif_pos cc.isLt]
  rw [Finset.sum_congr rfl fun cc _ => e cc, ← flag_mul_sum, sum_chunkTerm]
  unfold expertN
  rw [dif_pos h.isLt]

end Cert.Moe

end
-- ==== Proof.Blocks.lean ====
/-
  Where the blocks come from: every block a grid point reads, as entries of the six ARGUMENT arrays.

  Grid point `t` of the 16 x 8 x 8 grid (row block, expert, chunk; the chunk moving fastest) has row block `t / 64`,
  expert `t % 64 / 8` and chunk `t % 8`. Before the grid runs, the host casts three arguments to another float format
  (the identity at the ideal values) and views three others under one more unit axis. So, with `i = 1024 * (t / 64) + r`
  the global row of local row `r`, and `512 * (t % 8) + k` the global hidden position of local position `k`:
  the rows' block reads `X[i, j]`, the selector block `S[i]`, the first-layer blocks `W1[h, j, 512 c + k]` and
  `b1[h, 512 c + k]`, the second-layer blocks `W2[h, 512 c + k, v]` and `b2[h, v]`.
-/
import proofs.«108581_j88785563943771_2_alg».proof.Proof.Gen.KernelIdeal.Frame
import proofs.«108581_j88785563943771_2_alg».proof.Proof.MoeSpec
import proofs.«108581_j88785563943771_2_alg».proof.Proof.LibKeepdims
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout
import Idealize.ShloMosaic.PureOps.Ideal

noncomputable section

namespace Cert.KernelIdeal.Blocks

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx

variable (m : (ℓ : Loc nD τ sig) → Buf (Elt Ideal) ℓ)

/-- The six argument arrays of core `c`, as the specification takes them. -/
def args (c : Dev nD) : Cert.Moe.Args where
  X := m ((c : Thread nD τ).loc main_arg0)
  S := m ((c : Thread nD τ).loc main_arg1)
  W1 := m ((c : Thread nD τ).loc main_arg2)
  B1 := m ((c : Thread nD τ).loc main_arg3)
  W2 := m ((c : Thread nD τ).loc main_arg4)
  B2 := m ((c : Thread nD τ).loc main_arg5)

/-! ## The grid's coordinates and the windows' block indices, decided over the 1024 points -/

theorem grid_facts : ∀ t : Fin cfg0.N,
    (grid0.coords t 1).val = t.val % 64 / 8 ∧ (grid0.coords t 2).val = t.val % 64 % 8
    ∧ win0_0.index t (0 : Fin 2) = t.val / 64 ∧ win0_0.index t (1 : Fin 2) = 0
    ∧ win0_1.index t (0 : Fin 2) = t.val / 64 ∧ win0_1.index t (1 : Fin 2) = 0
    ∧ win0_2.index t (0 : Fin 3) = t.val % 64 / 8 ∧ win0_2.index t (1 : Fin 3) = 0 ∧ win0_2.index t (2 : Fin 3) = t.val % 64 % 8
    ∧ win0_3.index t (0 : Fin 3) = t.val % 64 / 8 ∧ win0_3.index t (1 : Fin 3) = 0 ∧ win0_3.index t (2 : Fin 3) = t.val % 64 % 8
    ∧ win0_4.index t (0 : Fin 3) = t.val % 64 / 8 ∧ win0_4.index t (1 : Fin 3) = t.val % 64 % 8 ∧ win0_4.index t (2 : Fin 3) = 0
    ∧ win0_5.index t (0 : Fin 3) = t.val % 64 / 8 ∧ win0_5.index t (1 : Fin 3) = 0 ∧ win0_5.index t (2 : Fin 3) = 0
    ∧ win0_6.index t (0 : Fin 2) = t.val / 64 ∧ win0_6.index t (1 : Fin 2) = 0 :=
  (by decide +kernel : ∀ t : Fin grid0.N, _)

theorem lt_N (t : Fin cfg0.N) : t.val < 1024 := lt_of_lt_of_eq t.isLt (show cfg0.N = 1024 from N_0)

/-- The global row of local row `r` at point `t`, the point's expert and its chunk. -/
def rowOf (t : Fin cfg0.N) (r : Fin 1024) : Fin 16384 := ⟨1024 * (t.val / 64) + r.val, by have := lt_N t; have := r.isLt; omega⟩
def expertOf (t : Fin cfg0.N) : Fin 8 := ⟨t.val % 64 / 8, by omega⟩
def chunkOf (t : Fin cfg0.N) : Fin 8 := ⟨t.val % 64 % 8, by omega⟩

/-! ## What the region finds in the staged arrays -/

/-- An `[a, b]` array viewed as `[a, 1, b]` reads, at `(i, u, j)`, the array at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem V0_apply (c : Dev nD) (q : S16384x2048.Idx) :
    (V m c main_v0 q : EReal) = m ((c : Thread nD τ).loc main_arg0) q := by
  have e : (V m c main_v0 : S16384x2048.Idx → EReal)
      = (truncf (F := Ideal) .bf16 (m ((c : Thread nD τ).loc main_arg0)) bitsLt_bf16_f32 : S16384x2048.Idx → EReal) := by
    dsimp only [Gen.V, Gen.hostOps0]; after_results
  rw [e]; rfl

theorem V2_apply (c : Dev nD) (q : S8x2048x4096.Idx) :
    (V m c main_v2 q : EReal) = m ((c : Thread nD τ).loc main_arg2) q := by
  have e : (V m c main_v2 : S8x2048x4096.Idx → EReal)
      = (truncf (F := Ideal) .bf16 (m ((c : Thread nD τ).loc main_arg2)) bitsLt_bf16_f32 : S8x2048x4096.Idx → EReal) := by
    dsimp only [Gen.V, Gen.hostOps0]; after_results
  rw [e]; rfl

theorem V3_apply (c : Dev nD) (q : S8x4096x1024.Idx) :
    (V m c main_v3 q : EReal) = m ((c : Thread nD τ).loc main_arg4) q := by
  have e : (V m c main_v3 : S8x4096x1024.Idx → EReal)
      = (truncf (F := Ideal) .bf16 (m ((c : Thread nD τ).loc main_arg4)) bitsLt_bf16_f32 : S8x4096x1024.Idx → EReal) := by
    dsimp only [Gen.V, Gen.hostOps0]; after_results
  rw [e]; rfl

theorem V1_apply (c : Dev nD) (R : Fin 16384) (u : Fin 1) :
    (V m c main_v1 (ix2 R u) : BitVec 32) = m ((c : Thread nD τ).loc main_arg1) (ix1 R) := by
  have e : (V m c main_v1 : S16384x1.Idx → BitVec 32)
      = shapeCast S16384x1 (m ((c : Thread nD τ).loc main_arg1) : S16384.Idx → BitVec 32) shapeCasts_S16384_S16384x1 := by
    dsimp only [Gen.V, Gen.hostOps0]; after_results; rfl
  rw [e]
  exact Cert.LibKeepdims.shapeCast_a_a1_apply _ _ R u

theorem V4_apply (c : Dev nD) (h : Fin 8) (u : Fin 1) (k : Fin 4096) :
    (V m c main_v4 (ix3 h u k) : EReal) = m ((c : Thread nD τ).loc main_arg3) (ix2 h k) := by
  have e : (V m c main_v4 : S8x1x4096.Idx → EReal)
      = shapeCast S8x1x4096 (m ((c : Thread nD τ).loc main_arg3) : S8x4096.Idx → EReal) shapeCasts_S8x4096_S8x1x4096 := by
    dsimp only [Gen.V, Gen.hostOps0]; after_results; rfl
  rw [e]
  exact shapeCast_ab_a1b_apply (m ((c : Thread nD τ).loc main_arg3) : S8x4096.Idx → EReal) _ h u k

theorem V5_apply (c : Dev nD) (h : Fin 8) (u : Fin 1) (v : Fin 1024) :
    (V m c main_v5 (ix3 h u v) : EReal) = m ((c : Thread nD τ).loc main_arg5) (ix2 h v) := by
  have e : (V m c main_v5 : S8x1x1024.Idx → EReal)
      = shapeCast S8x1x1024 (m ((c : Thread nD τ).loc main_arg5) : S8x1024.Idx → EReal) shapeCasts_S8x1024_S8x1x1024 := by
    dsimp only [Gen.V, Gen.hostOps0]; after_results; rfl
  rw [e]
  exact shapeCast_ab_a1b_apply (m ((c : Thread nD τ).loc main_arg5) : S8x1024.Idx → EReal) _ h u v

/-! ## The blocks a grid point reads -/

theorem blk0 (c : Dev nD) (t : Fin cfg0.N) (r : Fin 1024) (j : Fin 2048) :
    (iblk m c 0 t : FVec Ideal S1024x2048 .bf16) (ix2 r j) = (args m c).X (ix2 (rowOf t r) j) := by
  obtain ⟨-, -, e0, e1, -⟩ := grid_facts t
  unfold iblk
  rw [View.read_apply]
  show (V m c main_v0 _ : EReal) = _
  rw [V0_apply]
  show m ((c : Thread nD τ).loc main_arg0) _ = m ((c : Thread nD τ).loc main_arg0) _
  congr 1
  funext a
  apply Fin.ext
  match a with
  | ⟨0, _⟩ => show win0_0.index t (0 : Fin 2) * 1024 + 1 * r.val = 1024 * (t.val / 64) + r.val; rw [e0]; omega
  | ⟨1, _⟩ => show win0_0.index t (1 : Fin 2) * 2048 + 1 * j.val = j.val; rw [e1]; omega

theorem blk1 (c : Dev nD) (t : Fin cfg0.N) (r : Fin 1024) (u : Fin 1) :
    (iblk m c 1 t : IVec S1024x1 32) (ix2 r u) = (args m c).S (ix1 (rowOf t r)) := by
  obtain ⟨-, -, -, -, e0, e1, -⟩ := grid_facts t
  unfold iblk
  rw [View.read_apply]
  show (V m c main_v1 _ : BitVec 32) = _
  have hi : (((cfg0.win 1).blk t).view.emb (ix2 r u) : S16384x1.Idx) = ix2 (rowOf t r) (0 : Fin 1) := by
    funext a
    apply Fin.ext
    match a with
    | ⟨0, _⟩ => show win0_1.index t (0 : Fin 2) * 1024 + 1 * r.val = 1024 * (t.val / 64) + r.val; rw [e0]; omega
    | ⟨1, _⟩ => show win0_1.index t (1 : Fin 2) * 1 + 1 * u.val = 0; rw [e1]; omega
  rw [hi, V1_apply]
  rfl

theorem blk2 (c : Dev nD) (t : Fin cfg0.N) (u : Fin 1) (j : Fin 2048) (k : Fin 512) :
    (iblk m c 2 t : FVec Ideal S1x2048x512 .bf16) (ix3 u j k) = (args m c).W1 (ix3 (expertOf t) j (Cert.Moe.pos (chunkOf t) k)) := by
  obtain ⟨-, -, -, -, -, -, f0, f1, f2, -⟩ := grid_facts t
  unfold iblk
  rw [View.read_apply]
  show (V m c main_v2 _ : EReal) = _
  rw [V2_apply]
  show m ((c : Thread nD τ).loc main_arg2) _ = m ((c : Thread nD τ).loc main_arg2) _
  congr 1
  funext a
  apply Fin.ext
  match a with
  | ⟨0, _⟩ => show win0_2.index t (0 : Fin 3) * 1 + 1 * u.val = t.val % 64 / 8; rw [f0]; omega
  | ⟨1, _⟩ => show win0_2.index t (1 : Fin 3) * 2048 + 1 * j.val = j.val; rw [f1]; omega
  | ⟨2, _⟩ => show win0_2.index t (2 : Fin 3) * 512 + 1 * k.val = k.val + 512 * (t.val % 64 % 8); rw [f2]; omega

theorem blk3 (c : Dev nD) (t : Fin cfg0.N) (u u' : Fin 1) (k : Fin 512) :
    (iblk m c 3 t : FVec Ideal S1x1x512 .f32) (ix3 u u' k) = (args m c).B1 (ix2 (expertOf t) (Cert.Moe.pos (chunkOf t) k)) := by
  obtain ⟨-, -, -, -, -, -, -, -, -, f0, f1, f2, -⟩ := grid_facts t
  unfold iblk
  rw [View.read_apply]
  show (V m c main_v4 _ : EReal) = _
  have hi : (((cfg0.win 3).blk t).view.emb (ix3 u u' k) : S8x1x4096.Idx) = ix3 (expertOf t) (0 : Fin 1) (Cert.Moe.pos (chunkOf t) k) := by
    funext a
    apply Fin.ext
    match a with
    | ⟨0, _⟩ => show win0_3.index t (0 : Fin 3) * 1 + 1 * u.val = t.val % 64 / 8; rw [f0]; omega
    | ⟨1, _⟩ => show win0_3.index t (1 : Fin 3) * 1 + 1 * u'.val = 0; rw [f1]; omega
    | ⟨2, _⟩ => show win0_3.index t (2 : Fin 3) * 512 + 1 * k.val = k.val + 512 * (t.val % 64 % 8); rw [f2]; omega
  rw [hi, V4_apply]
  rfl

theorem blk4 (c : Dev nD) (t : Fin cfg0.N) (u : Fin 1) (k : Fin 512) (v : Fin 1024) :
    (iblk m c 4 t : FVec Ideal S1x512x1024 .bf16) (ix3 u k v) = (args m c).W2 (ix3 (expertOf t) (Cert.Moe.pos (chunkOf t) k) v) := by
  obtain ⟨-, -, -, -, -, -, -, -, -, -, -, -, f0, f1, f2, -⟩ := grid_facts t
  unfold iblk
  rw [View.read_apply]
  show (V m c main_v3 _ : EReal) = _
  rw [V3_apply]
  show m ((c : Thread nD τ).loc main_arg4) _ = m ((c : Thread nD τ).loc main_arg4) _
  congr 1
  funext a
  apply Fin.ext
  match a with
  | ⟨0, _⟩ => show win0_4.index t (0 : Fin 3) * 1 + 1 * u.val = t.val % 64 / 8; rw [f0]; omega
  | ⟨1, _⟩ => show win0_4.index t (1 : Fin 3) * 512 + 1 * k.val = k.val + 512 * (t.val % 64 % 8); rw [f1]; omega
  | ⟨2, _⟩ => show win0_4.index t (2 : Fin 3) * 1024 + 1 * v.val = v.val; rw [f2]; omega

theorem blk5 (c : Dev nD) (t : Fin cfg0.N) (u u' : Fin 1) (v : Fin 1024) :
    (iblk m c 5 t : FVec Ideal S1x1x1024 .f32) (ix3 u u' v) = (args m c).B2 (ix2 (expertOf t) v) := by
  obtain ⟨-, -, -, -, -, -, -, -, -, -, -, -, -, -, -, f0, f1, f2, -⟩ := grid_facts t
  unfold iblk
  rw [View.read_apply]
  show (V m c main_v5 _ : EReal) = _
  have hi : (((cfg0.win 5).blk t).view.emb (ix3 u u' v) : S8x1x1024.Idx) = ix3 (expertOf t) (0 : Fin 1) v := by
    funext a
    apply Fin.ext
    match a with
    | ⟨0, _⟩ => show win0_5.index t (0 : Fin 3) * 1 + 1 * u.val = t.val % 64 / 8; rw [f0]; omega
    | ⟨1, _⟩ => show win0_5.index t (1 : Fin 3) * 1 + 1 * u'.val = 0; rw [f1]; omega
    | ⟨2, _⟩ => show win0_5.index t (2 : Fin 3) * 1024 + 1 * v.val = v.val; rw [f2]; omega
  rw [hi, V5_apply]
  rfl

end Cert.KernelIdeal.Blocks

end
-- ==== Proof.Accum.lean ====
/-
  The accumulation over a row block's 64 grid steps, and the result array.

  The 1024 grid points run row block by row block; within a row block the 64 steps (8 experts x 8 chunks) add, one
  after the other, their weighted chunk term to an accumulator that the first step starts from zero; the last step
  copies the accumulator to the output block, which alone is written back. So, entry by entry:
    * after step `j` of a row block the accumulator holds the running total of the steps' terms up to `j`
      (by induction on the grid point, never by enumerating the grid);
    * the block written back holds the total of all 64, which is the specification's entry;
    * the 16 blocks written back tile the result array.
-/
import proofs.«108581_j88785563943771_2_alg».proof.Proof.Gen.KernelIdeal.Value
import proofs.«108581_j88785563943771_2_alg».proof.Proof.Pieces
import proofs.«108581_j88785563943771_2_alg».proof.Proof.Payload
import proofs.«108581_j88785563943771_2_alg».proof.Proof.Blocks
import proofs.«108581_j88785563943771_2_alg».proof.Proof.MoeSpec
import Idealize.ShloMosaic.Lib.Pipeline.Value

open scoped BigOperators

noncomputable section

namespace Cert.KernelIdeal.Accum

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks Cert.KernelIdeal.Payload Cert.KernelIdeal.Pieces Cert.Moe Cert.ExpertSum

variable (m : (ℓ : Loc nD τ sig) → Buf (Elt Ideal) ℓ) (ρ : Dev nD → PrngReg)

/-- A hidden unit of a point's chunk, read off the blocks, is the specification's hidden unit at the global row and
    the global hidden position. -/
theorem hid_blk (c : Dev nD) (t : Fin cfg0.N) (r : Fin 1024) (k : Fin 512) :
    hid (iblk m c 0 t) (iblk m c 2 t) (iblk m c 3 t) r k
      = Moe.hidden (args m c) (expertOf t) (rowOf t r) (pos (chunkOf t) k) := by
  unfold hid Moe.hidden
  simp only [blk0 m c t, blk2 m c t, blk3 m c t]

/-- A point's contribution, read off the blocks, is the specification's chunk term. -/
theorem contrib_blk (c : Dev nD) (t : Fin cfg0.N) (r v : Fin 1024) :
    contrib (iblk m c 0 t) (iblk m c 2 t) (iblk m c 3 t) (iblk m c 4 t) (iblk m c 5 t) ((grid0.coords t 2).val = 7) r v
      = chunkTerm (args m c) (expertOf t) (chunkOf t) (rowOf t r) v := by
  obtain ⟨-, g2, -⟩ := grid_facts t
  unfold contrib chunkTerm
  rw [g2]
  simp only [hid_blk m c t, blk4 m c t, blk5 m c t]
  rfl

/-- One step's update of accumulator entry `(r, v)`: what it held plus the step's weighted term, in the specification's
    words (the blocks read as entries of the argument arrays). -/
theorem update_apply (c : Dev nD) (t : Fin cfg0.N) (acc : Vec Ideal S1024x1024 .f32) (r v : Fin 1024) :
    update (grid0.coords t) (iblk m c 0 t) (iblk m c 1 t) (iblk m c 2 t) (iblk m c 3 t) (iblk m c 4 t) (iblk m c 5 t) acc (ix2 r v)
      = acc (ix2 r v) + stepTerm (args m c) (rowOf t r) v (t.val % 64) := by
  obtain ⟨g1, -⟩ := grid_facts t
  have hN := lt_N t
  have hp4 := pay4_apply (grid0.coords t) (iblk m c 1 t) r 0
  have hp3 := pay3_apply (grid0.coords t) (iblk m c 0 t) (iblk m c 2 t) (iblk m c 3 t) (iblk m c 4 t) (iblk m c 5 t) r v
  refine (pay1_apply (k0_pay3 (grid0.coords t) (iblk m c 0 t) (iblk m c 2 t) (iblk m c 3 t) (iblk m c 4 t) (iblk m c 5 t))
    (k0_pay4 (grid0.coords t) (iblk m c 1 t)) acc r v).trans ?_
  rw [hp4, sitofp_flag, hp3, contrib_blk m c t r v, blk1 m c t r 0, g1]
  unfold stepTerm chunkN sel
  rw [dif_pos (show t.val % 64 / 8 < 8 by omega), dif_pos (show t.val % 64 % 8 < 8 by omega)]
  rfl

/-- The first step of a row block leaves the step's term added to zero. -/
theorem acc_first (c : Dev nD) (t : Fin cfg0.N) (h0 : t.val % 64 = 0) (h1 : ¬t.val % 64 = 63) (r v : Fin 1024) :
    (outsAt0 m c t.val t.isLt).2 (ix2 r v) = 0 + stepTerm (args m c) (rowOf t r) v (t.val % 64) := by
  rw [outsAt0_A m c t h0 h1]
  dsimp only
  refine (congrFun (scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 r v)).trans ?_
  refine (update_apply m c t _ r v).trans ?_
  rw [pay2_apply]

/-- Every other step adds its term to what the step before left. -/
theorem acc_next (c : Dev nD) (t : Fin cfg0.N) (h0 : ¬t.val % 64 = 0) (r v : Fin 1024) :
    (outsAt0 m c t.val t.isLt).2 (ix2 r v)
      = (outsAt0 m c (t.val - 1) (Nat.lt_of_le_of_lt (Nat.sub_le _ _) t.isLt)).2 (ix2 r v) + stepTerm (args m c) (rowOf t r) v (t.val % 64) := by
  by_cases h1 : t.val % 64 = 63
  · rw [outsAt0_C m c t h0 h1]
    dsimp only
    refine (congrFun (scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 r v)).trans ?_
    exact update_apply m c t _ r v
  · rw [outsAt0_B m c t h0 h1]
    dsimp only
    refine (congrFun (scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 r v)).trans ?_
    exact update_apply m c t _ r v

/-- At the last step of a row block the output block holds what the accumulator holds. -/
theorem out_last (c : Dev nD) (t : Fin cfg0.N) (h0 : ¬t.val % 64 = 0) (h1 : t.val % 64 = 63) :
    (outsAt0 m c t.val t.isLt).1 = (outsAt0 m c t.val t.isLt).2 := by
  rw [outsAt0_C m c t h0 h1]
  dsimp only
  exact (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2).trans
    (scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2).symm

/-- THE INVARIANT: after grid point `n` the accumulator holds the running total of its row block's steps so far. -/
theorem acc_eq (c : Dev nD) : ∀ (n : ℕ) (h : n < cfg0.N) (r v : Fin 1024),
    (outsAt0 m c n h).2 (ix2 r v) = running (stepTerm (args m c) (rowOf ⟨n, h⟩ r) v) (n % 64)
  | 0, h, r, v => (acc_first m c ⟨0, h⟩ rfl (by dsimp only; omega) r v).trans rfl
  | n + 1, h, r, v => by
    have hN : n + 1 < 1024 := lt_N ⟨n + 1, h⟩
    by_cases h0 : (n + 1) % 64 = 0
    · refine (acc_first m c ⟨n + 1, h⟩ h0 (by dsimp only; omega) r v).trans ?_
      show 0 + stepTerm _ _ v ((n + 1) % 64) = running _ ((n + 1) % 64)
      rw [h0]
      rfl
    · refine (acc_next m c ⟨n + 1, h⟩ h0 r v).trans ?_
      have e1 : (n + 1) % 64 = n % 64 + 1 := by omega
      have e2 : rowOf ⟨n, Nat.lt_of_succ_lt h⟩ r = rowOf ⟨n + 1, h⟩ r :=
        Fin.ext (by show 1024 * (n / 64) + r.val = 1024 * ((n + 1) / 64) + r.val; omega)
      show (outsAt0 m c n _).2 (ix2 r v) + stepTerm _ _ v ((n + 1) % 64) = running _ ((n + 1) % 64)
      rw [acc_eq c n _ r v, e2, e1]
      rfl

/-- The block written back after a row block's last step holds the specification's entries of that row block. -/
theorem out_eq_G (c : Dev nD) (t : Fin cfg0.N) (h1 : t.val % 64 = 63) (r v : Fin 1024) :
    (outsAt0 m c t.val t.isLt).1 (ix2 r v) = G (args m c) (ix2 (rowOf t r) v) := by
  have h0 : ¬t.val % 64 = 0 := by omega
  rw [out_last m c t h0 h1, acc_eq m c t.val t.isLt r v, h1, running_eq_sum]
  exact sum_stepTerm (args m c) (rowOf t r) v

end Cert.KernelIdeal.Accum

end
-- ==== Proof.KernelResult.lean ====
/-
  The kernel's result array: the specification's `G` of the argument arrays.

  The output window's block at the last step of row block `b` is rows `1024 b … 1024 b + 1023`, all columns; what is
  written back there is the accumulated total, which is `G` read through that block; and every entry `(i, v)` of the
  result lies in the block written back at the last step of row block `i / 1024`. So the array ends at `G`.
-/
import proofs.«108581_j88785563943771_2_alg».proof.Proof.Accum
import Idealize.ShloMosaic.Lib.Pipeline.Value

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks Cert.KernelIdeal.Accum Cert.Moe

variable (m : (ℓ : Loc nD τ sig) → Buf (Elt Ideal) ℓ) (ρ : Dev nD → PrngReg)

/-- The output window's block index at a grid point: the point's row block, column block 0. -/
theorem out_idx : ∀ t : Fin cfg0.N, win0_6.index t (0 : Fin 2) = t.val / 64 ∧ win0_6.index t (1 : Fin 2) = 0 :=
  (by decide +kernel : ∀ t : Fin grid0.N, _)

/-- What a write-back writes is `G` read through the block. -/
theorem flushed_eq (c : Dev nD) (t : Fin cfg0.N) (hf : (cfg0.win 6).flush t = true) :
    (dats m 0 c).flushed 6 t = ((cfg0.win 6).blk t).view.read (Elt Ideal) (G (args m c)) := by
  have h1 : t.val % 64 = 63 := (flush0_6 t).mp hf
  obtain ⟨e0, e1⟩ := out_idx t
  rw [Cert.KernelIdeal.Value.flushed6]
  funext y
  obtain ⟨r, v, rfl⟩ : ∃ (r v : Fin 1024), (y : S1024x1024.Idx) = ix2 r v := ⟨y 0, y 1, eq_ix2 y⟩
  show (outsAt0 m c t.val t.isLt).1 (ix2 r v) = G (args m c) (((cfg0.win 6).blk t).view.emb (ix2 r v))
  rw [out_eq_G m c t h1 r v]
  congr 1
  funext a
  apply Fin.ext
  match a with
  | ⟨0, _⟩ => show 1024 * (t.val / 64) + r.val = win0_6.index t (0 : Fin 2) * 1024 + 1 * r.val; rw [e0]; omega
  | ⟨1, _⟩ => show v.val = win0_6.index t (1 : Fin 2) * 1024 + 1 * v.val; rw [e1]; omega

/-- An entry of the result is in a point's block iff each coordinate is in the block's range. -/
theorem mem_blk (t : Fin cfg0.N) (i : S16384x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v6).slice (win0_6.rect t)).set ↔ _
  rw [View.set_slice_whole, Rect.mem_set_unit]
  exact Iff.rfl

/-- THE RESULT ARRAY after the run. -/
theorem final (c : Dev nD) : (dats m 0 c).arrAt 6 cfg0.N = G (args m c) :=
  (dats m 0 c).arrAt_eq_of_cover 6 (G (args m c)) (flushed_eq m c) fun i => by
    have hi0 : ((i : S16384x1024.Idx) 0).val < 16384 := (i 0).isLt
    have hi1 : ((i : S16384x1024.Idx) 1).val < 1024 := (i 1).isLt
    have hN : cfg0.N = 1024 := N_0
    have ht : 64 * ((i 0).val / 1024) + 63 < cfg0.N := by rw [hN]; omega
    obtain ⟨e0, e1⟩ := out_idx ⟨_, ht⟩
    dsimp only at e0
    refine ⟨⟨_, ht⟩, (flush0_6 _).mpr (by show (64 * ((i 0).val / 1024) + 63) % 64 = 63; omega), ?_⟩
    rw [mem_blk]
    intro a
    match a with
    | ⟨0, _⟩ =>
      show win0_6.index ⟨_, ht⟩ (0 : Fin 2) * 1024 ≤ (i 0).val ∧ (i 0).val < win0_6.index ⟨_, ht⟩ (0 : Fin 2) * 1024 + 1024
      rw [e0]; omega
    | ⟨1, _⟩ =>
      show win0_6.index ⟨_, ht⟩ (1 : Fin 2) * 1024 ≤ (i 1).val ∧ (i 1).val < win0_6.index ⟨_, ht⟩ (1 : Fin 2) * 1024 + 1024
      rw [e1]; omega

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v6) = G (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Result

end
-- ==== Proof.RefRead.lean ====
/-
  The reference, read: its result is the specification's `G` of its six arguments.

  The reference tries the eight experts in turn. For expert `h` it cuts the expert's weights out of the stacked
  arrays, computes `max (X · W1[h] + b1[h]) 0 · W2[h] + b2[h]` for EVERY row, compares every row's selector word with
  `h`, and keeps the new value in the rows where they agree, the earlier result elsewhere. One expert's stretch of
  operations is read once, for any `h` (`expertOps`, `condOps`); the eight stretches are instances of it.
-/
import proofs.«108581_j88785563943771_2_alg».proof.Proof.Gen.ReferenceIdeal.Read
import proofs.«108581_j88785563943771_2_alg».proof.Proof.MoeSpec
import proofs.«108581_j88785563943771_2_alg».proof.Proof.LibDot
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.ReferenceIdeal.RefRead

open Cert.ReferenceIdeal Cert.ReferenceIdeal.Gen Cert.ReferenceIdeal.Read Idealize.ShloMosaic Idealize.ShloMosaic.ValueIdx
open Cert.Moe Cert.ExpertSum

/-- One expert's value for every row, as the reference's operations compute it. -/
def expertOps (h : ℕ) (s2 : S8x2048x4096.Slices ![h, 0, 0] S1x2048x4096) (s3 : S8x4096.Slices ![h, 0] S1x4096)
    (s4 : S8x4096x1024.Slices ![h, 0, 0] S1x4096x1024) (s5 : S8x1024.Slices ![h, 0] S1x1024)
    (x0 : FVec Ideal S16384x2048 .f32) (x2 : FVec Ideal S8x2048x4096 .f32) (x3 : FVec Ideal S8x4096 .f32)
    (x4 : FVec Ideal S8x4096x1024 .f32) (x5 : FVec Ideal S8x1024 .f32) : FVec Ideal S16384x1024 .f32 :=
  addf
    (Host.dotGeneral dot_S16384x4096_S4096x1024_S16384x1024_1_0_0_1_n_n none
      (maximumf
        (addf
          (Host.dotGeneral dot_S16384x2048_S2048x4096_S16384x4096_1_0_0_1_n_n none x0
            (shapeCast _ (extractStridedSlice S1x2048x4096 ![h, 0, 0] x2 s2) shapeCasts_S1x2048x4096_S2048x4096))
          (broadcastInDim S16384x4096 ![0, 1] bcast_S1x4096_S16384x4096_0_1
            (broadcastInDim S1x4096 ![1] bcast_S4096_S1x4096_1
              (shapeCast _ (extractStridedSlice S1x4096 ![h, 0] x3 s3) shapeCasts_S1x4096_S4096))))
        (broadcastInDim S16384x4096 ![] bcast_S_S16384x4096 (constant (F := Ideal) S_ .f32 0x00000000#32)))
      (shapeCast _ (extractStridedSlice S1x4096x1024 ![h, 0, 0] x4 s4) shapeCasts_S1x4096x1024_S4096x1024))
    (broadcastInDim S16384x1024 ![0, 1] bcast_S1x1024_S16384x1024_0_1
      (broadcastInDim S1x1024 ![1] bcast_S1024_S1x1024_1
        (shapeCast _ (extractStridedSlice S1x1024 ![h, 0] x5 s5) shapeCasts_S1x1024_S1024)))

/-- The rows' flags for one expert number, spread over the columns. -/
def condOps (w : BitVec 32) (x1 : IVec S16384 32) : IVec S16384x1024 1 :=
  broadcastInDim S16384x1024 ![0, 1] bcast_S16384x1_S16384x1024_0_1
    (broadcastInDim S16384x1 ![0] bcast_S16384_S16384x1_0
      (cmpi .eq x1 (broadcastInDim S16384 ![] bcast_S_S16384 (constantI S_ 32 w))))

theorem condOps_apply (w : BitVec 32) (x1 : IVec S16384 32) (i : Fin 16384) (v : Fin 1024) :
    condOps w x1 (ix2 i v) = IntOp.cmpi .eq (x1 (ix1 i)) w := by
  unfold condOps
  refine (broadcastInDim_apply _ bcast_S16384x1_S16384x1024_0_1 _ (ix2 i v) (ix2 i (0 : Fin 1)) fun a => ?_).trans ?_
  · match a with
    | ⟨0, _⟩ => show i.val = if (16384 : Nat) = 1 then 0 else i.val; rw [if_neg (by decide)]
    | ⟨1, _⟩ => show 0 = if (1 : Nat) = 1 then 0 else v.val; rw [if_pos rfl]
  refine (broadcastInDim_apply _ bcast_S16384_S16384x1_0 _ (ix2 i (0 : Fin 1)) (ix1 i) fun a => ?_).trans ?_
  · match a with
    | ⟨0, _⟩ => show i.val = if (16384 : Nat) = 1 then 0 else i.val; rw [if_neg (by decide)]
  show IntOp.cmpi .eq (x1 (ix1 i)) (broadcastInDim S16384 ![] bcast_S_S16384 (constantI S_ 32 w) (ix1 i)) = _
  rw [broadcastInDim_apply _ bcast_S_S16384 _ (ix1 i) ix0 (fun a => a.elim0)]
  rfl

theorem expertOps_apply (A : Args) (h : ℕ) (hh : h < 8) (s2 : S8x2048x4096.Slices ![h, 0, 0] S1x2048x4096)
    (s3 : S8x4096.Slices ![h, 0] S1x4096) (s4 : S8x4096x1024.Slices ![h, 0, 0] S1x4096x1024)
    (s5 : S8x1024.Slices ![h, 0] S1x1024) (i : Fin 16384) (v : Fin 1024) :
    expertOps h s2 s3 s4 s5 A.X A.W1 A.B1 A.W2 A.B2 (ix2 i v) = expert A ⟨h, hh⟩ i v := by
  unfold expertOps expert
  rw [addf_apply]
  congr 1
  · simp only [Host.dotGeneral]
    rw [show dot_S16384x4096_S4096x1024_S16384x1024_1_0_0_1_n_n = DotDims.plain 16384 4096 1024 from rfl,
      Cert.LibDot.dotGeneral_plain_apply]
    refine Finset.sum_congr rfl fun k _ => ?_
    congr 1
    · rw [maximumf_apply, addf_apply]
      unfold Moe.hidden
      congr 1
      · congr 1
        · rw [show dot_S16384x2048_S2048x4096_S16384x4096_1_0_0_1_n_n = DotDims.plain 16384 2048 4096 from rfl,
            Cert.LibDot.dotGeneral_plain_apply]
          refine Finset.sum_congr rfl fun j _ => ?_
          congr 1
          rw [shapeCast_1ab_ab_apply]
          exact extractStridedSlice_apply _ _ s2 _ _ fun a => by
            match a with
            | ⟨0, _⟩ => show h = h + 0; omega
            | ⟨1, _⟩ => show j.val = 0 + j.val; omega
            | ⟨2, _⟩ => show k.val = 0 + k.val; omega
        · refine (broadcastInDim_apply _ bcast_S1x4096_S16384x4096_0_1 _ (ix2 i k) (ix2 (0 : Fin 1) k) fun a => ?_).trans ?_
          · match a with
            | ⟨0, _⟩ => show 0 = if (1 : Nat) = 1 then 0 else i.val; rw [if_pos rfl]
            | ⟨1, _⟩ => show k.val = if (4096 : Nat) = 1 then 0 else k.val; rw [if_neg (by decide)]
          refine (broadcastInDim_apply _ bcast_S4096_S1x4096_1 _ (ix2 (0 : Fin 1) k) (ix1 k) fun a => ?_).trans ?_
          · match a with
            | ⟨0, _⟩ => show k.val = if (4096 : Nat) = 1 then 0 else k.val; rw [if_neg (by decide)]
          rw [shapeCast_1a_a_apply]
          exact extractStridedSlice_apply _ _ s3 _ _ fun a => by
            match a with
            | ⟨0, _⟩ => show h = h + 0; omega
            | ⟨1, _⟩ => show k.val = 0 + k.val; omega
      · refine (broadcastInDim_apply _ bcast_S_S16384x4096 _ (ix2 i k) ix0 (fun a => a.elim0)).trans ?_
        exact Ideal.ofBits_zero_f32
    · rw [shapeCast_1ab_ab_apply]
      exact extractStridedSlice_apply _ _ s4 _ _ fun a => by
        match a with
        | ⟨0, _⟩ => show h = h + 0; omega
        | ⟨1, _⟩ => show k.val = 0 + k.val; omega
        | ⟨2, _⟩ => show v.val = 0 + v.val; omega
  · refine (broadcastInDim_apply _ bcast_S1x1024_S16384x1024_0_1 _ (ix2 i v) (ix2 (0 : Fin 1) v) fun a => ?_).trans ?_
    · match a with
      | ⟨0, _⟩ => show 0 = if (1 : Nat) = 1 then 0 else i.val; rw [if_pos rfl]
      | ⟨1, _⟩ => show v.val = if (1024 : Nat) = 1 then 0 else v.val; rw [if_neg (by decide)]
    refine (broadcastInDim_apply _ bcast_S1024_S1x1024_1 _ (ix2 (0 : Fin 1) v) (ix1 v) fun a => ?_).trans ?_
    · match a with
      | ⟨0, _⟩ => show v.val = if (1024 : Nat) = 1 then 0 else v.val; rw [if_neg (by decide)]
    rw [shapeCast_1a_a_apply]
    exact extractStridedSlice_apply _ _ s5 _ _ fun a => by
      match a with
      | ⟨0, _⟩ => show h = h + 0; omega
      | ⟨1, _⟩ => show v.val = 0 + v.val; omega

/-- THE REFERENCE'S RESULT is the specification's `G` of its arguments: the eight stretches are the eight instances of
    `expertOps` and `condOps`, kept or passed over by the eight selections in turn, from the zero array. -/
theorem result_eq (A : Args) :
    val_main_v176 (F := Ideal) A.X A.S A.W1 A.B1 A.W2 A.B2 = G A := by
  have e : val_main_v176 (F := Ideal) A.X A.S A.W1 A.B1 A.W2 A.B2
      = select (condOps 7#32 A.S) (expertOps 7 slices_S8x2048x4096_S1x2048x4096_7_0_0 slices_S8x4096_S1x4096_7_0 slices_S8x4096x1024_S1x4096x1024_7_0_0 slices_S8x1024_S1x1024_7_0 A.X A.W1 A.B1 A.W2 A.B2)
        (select (condOps 6#32 A.S) (expertOps 6 slices_S8x2048x4096_S1x2048x4096_6_0_0 slices_S8x4096_S1x4096_6_0 slices_S8x4096x1024_S1x4096x1024_6_0_0 slices_S8x1024_S1x1024_6_0 A.X A.W1 A.B1 A.W2 A.B2)
        (select (condOps 5#32 A.S) (expertOps 5 slices_S8x2048x4096_S1x2048x4096_5_0_0 slices_S8x4096_S1x4096_5_0 slices_S8x4096x1024_S1x4096x1024_5_0_0 slices_S8x1024_S1x1024_5_0 A.X A.W1 A.B1 A.W2 A.B2)
        (select (condOps 4#32 A.S) (expertOps 4 slices_S8x2048x4096_S1x2048x4096_4_0_0 slices_S8x4096_S1x4096_4_0 slices_S8x4096x1024_S1x4096x1024_4_0_0 slices_S8x1024_S1x1024_4_0 A.X A.W1 A.B1 A.W2 A.B2)
        (select (condOps 3#32 A.S) (expertOps 3 slices_S8x2048x4096_S1x2048x4096_3_0_0 slices_S8x4096_S1x4096_3_0 slices_S8x4096x1024_S1x4096x1024_3_0_0 slices_S8x1024_S1x1024_3_0 A.X A.W1 A.B1 A.W2 A.B2)
        (select (condOps 2#32 A.S) (expertOps 2 slices_S8x2048x4096_S1x2048x4096_2_0_0 slices_S8x4096_S1x4096_2_0 slices_S8x4096x1024_S1x4096x1024_2_0_0 slices_S8x1024_S1x1024_2_0 A.X A.W1 A.B1 A.W2 A.B2)
        (select (condOps 1#32 A.S) (expertOps 1 slices_S8x2048x4096_S1x2048x4096_1_0_0 slices_S8x4096_S1x4096_1_0 slices_S8x4096x1024_S1x4096x1024_1_0_0 slices_S8x1024_S1x1024_1_0 A.X A.W1 A.B1 A.W2 A.B2)
        (select (condOps 0#32 A.S) (expertOps 0 slices_S8x2048x4096_S1x2048x4096_0_0_0 slices_S8x4096_S1x4096_0_0 slices_S8x4096x1024_S1x4096x1024_0_0_0 slices_S8x1024_S1x1024_0_0 A.X A.W1 A.B1 A.W2 A.B2)
          (broadcastInDim S16384x1024 ![] bcast_S_S16384x1024 (constant (F := Ideal) S_ .f32 0x00000000#32))))))))) := rfl
  rw [e]
  funext q
  obtain ⟨i, v, rfl⟩ : ∃ (i : Fin 16384) (v : Fin 1024), q = ix2 i v := ⟨q 0, q 1, eq_ix2 q⟩
  simp only [select_apply, condOps_apply,
    expertOps_apply A 7 (by decide), expertOps_apply A 6 (by decide), expertOps_apply A 5 (by decide),
    expertOps_apply A 4 (by decide), expertOps_apply A 3 (by decide), expertOps_apply A 2 (by decide),
    expertOps_apply A 1 (by decide), expertOps_apply A 0 (by decide)]
  rw [broadcastInDim_apply _ bcast_S_S16384x1024 _ (ix2 i v) ix0 (fun a => a.elim0)]
  rw [constant_apply, Ideal.ofBits_zero_f32]
  rfl

end Cert.ReferenceIdeal.RefRead

end
-- ==== Proof.lean ====
/-
  The five claims about one mixture-of-experts layer: every row is sent through the two-layer network
  `max (x · W1[h] + b1[h]) 0 · W2[h] + b2[h]` of the expert `h` its selector word names (and gets 0 when the word names
  none of the eight experts).

  The kernel computes this over a 16 x 8 x 8 grid (row block, expert, chunk of 512 hidden units), adding to a per-block
  accumulator, at each step, the 0/1 weight "this row selects this expert" times the chunk's part of the expert's value;
  the reference computes every expert's value for every row and selects, expert after expert. At the ideal values both
  end at the same function `Cert.Moe.G` of the six arguments, entry by entry: the weights being 0 or 1, they distribute
  over any sum of extended reals, and a sum may be cut into chunks and added in any order; nothing needs to be finite,
  and the precondition is never opened.

    * the three frames: the two kernels' are the generated frame runs; the reference's is its generated run with the
      result dropped;
    * the idealization rewrote nothing, so `preserves` is `True`;
    * `algebraic`: the kernel's run read as `G` (Proof/KernelResult.lean, over Proof/Accum.lean's induction on the grid
      point), the reference's run read as `G` (Proof/RefRead.lean), from memories that agree on the arguments.
-/
import proofs.«108581_j88785563943771_2_alg».proof.Defs
import proofs.«108581_j88785563943771_2_alg».proof.Proof.Gen.Kernel
import proofs.«108581_j88785563943771_2_alg».proof.Proof.Gen.Kernel.Skeleton
import proofs.«108581_j88785563943771_2_alg».proof.Proof.Gen.Kernel.Launch
import proofs.«108581_j88785563943771_2_alg».proof.Proof.Gen.Kernel.Points
import proofs.«108581_j88785563943771_2_alg».proof.Proof.Gen.Kernel.Frame
import proofs.«108581_j88785563943771_2_alg».proof.Proof.Gen.KernelIdeal
import proofs.«108581_j88785563943771_2_alg».proof.Proof.Gen.KernelIdeal.Skeleton
import proofs.«108581_j88785563943771_2_alg».proof.Proof.Gen.KernelIdeal.Launch
import proofs.«108581_j88785563943771_2_alg».proof.Proof.Gen.KernelIdeal.Points
import proofs.«108581_j88785563943771_2_alg».proof.Proof.Gen.KernelIdeal.Frame
import proofs.«108581_j88785563943771_2_alg».proof.Proof.Gen.ReferenceIdeal
import proofs.«108581_j88785563943771_2_alg».proof.Proof.Gen.KernelIdeal.Value
import proofs.«108581_j88785563943771_2_alg».proof.Proof.Gen.ReferenceIdeal.Run
import proofs.«108581_j88785563943771_2_alg».proof.Proof.Gen.ReferenceIdeal.Read
import proofs.«108581_j88785563943771_2_alg».proof.Proof.Gen.Pre_finite_inputs
import proofs.«108581_j88785563943771_2_alg».proof.Proof.KernelResult
import proofs.«108581_j88785563943771_2_alg».proof.Proof.RefRead
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `G` of arguments that agree. -/
theorem algebraic : Cert.algebraic_KernelIdeal_ReferenceIdeal := by
  intro m ρ m' ρ' _ hagree
  refine ⟨fun c => Cert.Moe.G (Cert.KernelIdeal.Blocks.args m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v176_eq]
  obtain ⟨a0, a1, a2, a3, a4, a5⟩ := hagree c
  rw [a0, a1, a2, a3, a4, a5]
  exact Cert.ReferenceIdeal.RefRead.result_eq (Cert.KernelIdeal.Blocks.args m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
